-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64 .f32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  main_v3
-- ==== Kernel.lean ====
abbrev S64 : Shape := ⟨1, ![64]⟩
abbrev S16 : Shape := ⟨1, ![16]⟩
abbrev S_ : Shape := ⟨0, ![]⟩

abbrev nBuf : Table → Nat
  | .hbm => 2
  | .local .scVector .vmem => 1
  | _ => 0

abbrev bufTy : (tb : Table) → Fin (nBuf tb) → BufTy
  | .hbm, ⟨0, _⟩ => ⟨S64, .f32⟩
  | .hbm, ⟨1, _⟩ => ⟨S64, .f32⟩
  | .local .scVector .vmem, ⟨0, _⟩ => ⟨S16, .f32⟩
  | _, _ => ⟨S64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 1 → Nat :=
  let arg1 : BitVec 32 := BitVec.ofNat 32 (i 1).val
  let c16_i32 : BitVec 32 := 16#32
  let v3 : BitVec 32 := Scalar.muli arg1 c16_i32
  ![v3.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S16_S16_0 : ∀ a, (![0] : Fin 1 → Nat) a + S16.size a ≤ S16.size a
  h_S16 : 0 < S16.numel
  shapeCasts_S16_S16 : S16.ShapeCasts S16
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S16.size a ≤ S64.size a

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S64 : Shape := ⟨1, ![64]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S64 : S_.BroadcastsInDim S64 (![] : Fin 0 → Fin S64.rank)

variable [Facts₀]

class Facts : Prop extends Facts₀ where

variable [Facts]
-- ==== Proof.KRun.lean ====
/-
  The run of the sigmoid kernel on the device's thirty-five threads, for any float instance.

  The array `prob` of 64 entries is cut into four chunks of 16. Vector subcore `s` of SparseCore 0, for `s < 4`,
  copies chunk `s` into its own scratch, replaces every entry `x` of the scratch by `1 / (1 + exp (0 - x))`, and
  copies the scratch to chunk `s` of the result; the subcores `s ≥ 4` do nothing. The chunks are disjoint and cover
  the array, so the result array ends at `i ↦ 1 / (1 + exp (0 - prob i))` and `prob` is unchanged.
-/
import proofs.«215008_g71657234367105_cont_9to1_m_633_12_alg».proof.Defs
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Tactic
import proofs.«215008_g71657234367105_cont_9to1_m_633_12_alg».proof.Proof.Gen.Kernel
import proofs.«215008_g71657234367105_cont_9to1_m_633_12_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the chunks -/

variable (m : (ℓ : Loc nD τ sig) → Buf (Elt F) ℓ) (ρ : Dev nD → PrngReg)

local notation "pW" => (Memref.whole Cert.Kernel.main_arg0_scv : Memref Cert.Kernel.sig Kind.scVector Space.hbm Cert.Kernel.S64 EltTy.f32)
local notation "oW" => (Memref.whole Cert.Kernel.main_v0_scv : Memref Cert.Kernel.sig Kind.scVector Space.hbm Cert.Kernel.S64 EltTy.f32)
local notation "sW" => (Memref.whole Cert.Kernel.cc0_scratch0 : Memref Cert.Kernel.sig Kind.scVector Space.vmem Cert.Kernel.S16 EltTy.f32)

/-- `prob` (the argument) and the result, as locations of device `d`. -/
abbrev pLoc (d : Dev nD) : Loc nD τ sig := (SparseCore.T d).loc main_arg0
abbrev oLoc (d : Dev nD) : Loc nD τ sig := (SparseCore.T d).loc main_v0

/-- Chunk `i`: the indices `16 i … 16 i + 15`. Nonempty only for `i < 4`. -/
def cset (i : Fin 16) : Finset S64.Idx := Finset.univ.filter fun x => (x 0).val / 16 = i.val

theorem mem_cset {i : Fin 16} {x : S64.Idx} : x ∈ cset i ↔ (x 0).val / 16 = i.val := by
  unfold cset; rw [Finset.mem_filter]; exact ⟨fun h => h.2, fun h => ⟨Finset.mem_univ _, h⟩⟩

theorem cset_disjoint : ∀ i ∈ (Finset.univ : Finset (Fin 16)), ∀ j ∈ (Finset.univ : Finset (Fin 16)), i ≠ j → Disjoint (cset i) (cset j) := by
  intro i _ j _ h
  refine Finset.disjoint_left.mpr fun x hi hj => h (Fin.ext ?_)
  rw [← mem_cset.mp hi, ← mem_cset.mp hj]

theorem cset_cover : (Finset.univ : Finset (Fin 16)).biUnion cset = Finset.univ := by
  ext x
  simp only [Finset.mem_biUnion, Finset.mem_univ, true_and, iff_true]
  have hx : (x 0).val < 64 := (x 0).isLt
  exact ⟨⟨(x 0).val / 16, by omega⟩, mem_cset.mpr rfl⟩

/-- Chunk `i` of `prob` at its launch contents, and of the result at `f`. -/
abbrev pChunk (d : Dev nD) (i : Fin 16) : sProp 𝕄 := pLoc d ↦[cset i]{fullShare} m (pLoc d)
abbrev oChunk (d : Dev nD) (i : Fin 16) (f : Buf (Elt F) (oLoc d)) : sProp 𝕄 := oLoc d ↦[cset i]{fullShare} f

variable [FloatOps F]

/-- One entry of the result from one entry of `prob`: `1 / (1 + exp (0 - x))`, in the instance's own operations. -/
def sig1 (x : F .f32) : F .f32 :=
  FloatOps.divf (Scalar.ofBits .f32 0x3F800000#32) (FloatOps.addf (Scalar.ofBits .f32 0x3F800000#32) (FloatOps.exp (FloatOps.subf (Scalar.ofBits .f32 0x00000000#32) x)))

/-- What the body stores is `sig1` of what it loaded, entry by entry. -/
theorem pay_apply (v : Vec F S16 .f32) (y : S16.Idx) : k0_pay1 v y = sig1 (v y) := by
  unfold k0_pay1 sig1
  simp only [shapeCast_self]
  rfl

/-- The result array as a function of `prob`. -/
def outFn (d : Dev nD) (f : Buf (Elt F) (pLoc d)) : Buf (Elt F) (oLoc d) := fun x => sig1 (f x)

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The chunk a working subcore slices out of `prob` and out of the result. -/
abbrev chunkR (L : grid0.Coords) (h : k0_cond1 L = 1#1) : Rect S64 := Rect.unit (s := S64) (k0_off1 L) S16.size (k0_off1_inb L h)
abbrev pSl (L : grid0.Coords) (h : k0_cond1 L = 1#1) : Memref sig .scVector .hbm S16 .f32 := (pW).slice (chunkR L h) (fun _ => rfl)
abbrev oSl (L : grid0.Coords) (h : k0_cond1 L = 1#1) : Memref sig .scVector .hbm S16 .f32 := (oW).slice (chunkR L h) (fun _ => rfl)

omit [FloatOps F] in
/-- The sliced rectangle is chunk `L 1`: the offset is `16 · L 1`. -/
theorem set_chunk (h : k0_cond1 L = 1#1) : (chunkR L h).set = cset (jL L) := by
  ext x
  rw [Rect.mem_set_unit, mem_cset, k0_off1_eq]
  show (∀ a, (![16 * (L 1).val] : Fin 1 → Nat) a ≤ x a ∧ (x a : Nat) < (![16 * (L 1).val] : Fin 1 → Nat) a + S16.size a) ↔ (x 0).val / 16 = (L 1).val
  constructor
  · intro hx
    have h0 := hx 0
    simp only [Matrix.cons_val_zero] at h0
    have : S16.size 0 = 16 := rfl
    omega
  · intro hx a
    obtain rfl : a = 0 := Subsingleton.elim _ _
    simp only [Matrix.cons_val_zero]
    have : S16.size 0 = 16 := rfl
    omega

omit [FloatOps F] in
theorem set_pSl (h : k0_cond1 L = 1#1) : (pSl L h).view.set = cset (jL L) := by
  show ((View.whole (main_arg0_scv : Ref sig .scVector)).slice (chunkR L h)).set = _
  rw [View.set_slice_whole]; exact set_chunk L h
omit [FloatOps F] in
theorem set_oSl (h : k0_cond1 L = 1#1) : (oSl L h).view.set = cset (jL L) := by
  show ((View.whole (main_v0_scv : Ref sig .scVector)).slice (chunkR L h)).set = _
  rw [View.set_slice_whole]; exact set_chunk L h

omit [FloatOps F] in
theorem pts_pSl (h : k0_cond1 L = 1#1) (f : Buf (Elt F) (pLoc d)) :
    ((pSl L h).view.loc (V d (cV L) (jV L)) ↦[(pSl L h).view.set]{fullShare} f : sProp 𝕄) = pLoc d ↦[cset (jL L)]{fullShare} f := by
  rw [set_pSl]
omit [FloatOps F] in
theorem pts_oSl (h : k0_cond1 L = 1#1) (f : Buf (Elt F) (oLoc d)) :
    ((oSl L h).view.loc (V d (cV L) (jV L)) ↦[(oSl L h).view.set]{fullShare} f : sProp 𝕄) = oLoc d ↦[cset (jL L)]{fullShare} f := by
  rw [set_oSl]
omit [FloatOps F] in
theorem pts_sW (f : Buf (Elt F) ((V d (cV L) (jV L)).loc cc0_scratch0)) :
    ((sW).view.loc (V d (cV L) (jV L)) ↦{fullShare} f : sProp 𝕄) = (V d (cV L) (jV L)).loc cc0_scratch0 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The scratch is among the subcore's own buffers: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- The whole-scratch rectangle sits at offset 0: an index in it is the scratch's own index. -/
theorem rS_emb (x : (Rect.unit (s := S16) ![0] S16.size inb_S16_S16_0).shape.Idx) :
    (Rect.unit (s := S16) ![0] S16.size inb_S16_S16_0).emb x = x := by
  funext a; apply Fin.ext
  obtain rfl : a = 0 := Subsingleton.elim _ _
  show 0 + 1 * (x 0).val = (x 0).val
  omega
omit [FloatOps F] in
theorem rS_idx (x : (Rect.unit (s := S16) ![0] S16.size inb_S16_S16_0).toLoadRect.shape.Idx) :
    (Rect.unit (s := S16) ![0] S16.size inb_S16_S16_0).toLoadRect.idx x = x := by
  funext a; apply Fin.ext
  rw [LoadRect.idx_apply, Subsingleton.elim a 0]
  show 0 + 1 * (x 0).val = (x 0).val
  omega

omit [FloatOps F] in
/-- A store over the whole scratch leaves the stored vector, whatever the scratch held. -/
theorem scratch_store (X : (View.whole (cc0_scratch0 : Ref sig .scVector)).ty.Contents (Elt F))
    (w : (Rect.unit (s := S16) ![0] S16.size inb_S16_S16_0).shape.Idx → Elt F .f32) :
    (View.whole (cc0_scratch0 : Ref sig .scVector)).writes (Elt F) X [⟨Rect.unit (s := S16) ![0] S16.size inb_S16_S16_0, w⟩] = w := by
  funext y
  have e := View.read_writes_cons_emb (View.whole (cc0_scratch0 : Ref sig .scVector)) X (Rect.unit (s := S16) ![0] S16.size inb_S16_S16_0) w [] y
  rw [rS_emb, View.read_whole] at e
  exact e
omit [FloatOps F] in
/-- A load of the whole scratch reads what it holds. -/
theorem scratch_load (X : (View.whole (cc0_scratch0 : Ref sig .scVector)).ty.Contents (Elt F)) :
    View.readAt (Elt F) (View.whole (cc0_scratch0 : Ref sig .scVector)) (Rect.unit (s := S16) ![0] S16.size inb_S16_S16_0).toLoadRect X = X := by
  funext x
  rw [View.readAt_apply, View.read_whole, rS_idx]

/-- What a working subcore leaves in its chunk of the result: at every index of the chunk, `sig1` of `prob` there.
    The copy in fills the scratch with the chunk of `prob`; the store overwrites all of it with `sig1` of it, entry
    by entry; the copy out writes the scratch over the chunk of the result. -/
theorem out_val (h : k0_cond1 L = 1#1) (fs : Buf (Elt F) ((V d (cV L) (jV L)).loc cc0_scratch0)) :
    ∀ i ∈ (oSl L h).view.set,
      (oSl L h).view.writes (Elt F) (m (oLoc d))
        [⟨Rect.whole S16, ReadAs.same.apply ((sW).view.read (Elt F)
          ((sW).view.writes (Elt F) ((sW).view.write (Elt F) fs (ReadAs.same.apply ((pSl L h).view.read (Elt F) (m (pLoc d)))) Finset.univ)
            [⟨Rect.unit (s := S16) ![0] S16.size inb_S16_S16_0,
              k0_pay1 ((sW).view.readAt (Elt F) (Rect.unit (s := S16) ![0] S16.size inb_S16_S16_0).toLoadRect
                ((sW).view.write (Elt F) fs (ReadAs.same.apply ((pSl L h).view.read (Elt F) (m (pLoc d)))) Finset.univ))⟩]))⟩] i
      = outFn d (m (pLoc d)) i := by
  intro i hi
  obtain ⟨y, -, rfl⟩ := Finset.mem_map.mp hi
  refine ((View.read_apply (v := (oSl L h).view) _ y).trans (cast_eq _ _)).symm.trans ?_
  refine (Eq.trans (congrArg _ (Rect.emb_whole_apply S16 y).symm) (View.read_writes_cons_emb _ _ _ _ _ _)).trans ?_
  simp only [ReadAs.apply_same, Memref.view_whole, View.read_whole, View.write_whole_univ]
  show ((View.whole (cc0_scratch0 : Ref sig .scVector)).writes (Elt F) _ [⟨_, _⟩]) y = _
  rw [scratch_store, pay_apply, scratch_load]
  exact congrArg sig1 ((View.read_apply _ _).trans (cast_eq _ _))

omit [FloatOps F] in
/-- A subcore that does not work has coordinate 4 or more: -/
theorem idle_ge : ∀ L : grid0.Coords, ¬ k0_cond1 L = 1#1 → 4 ≤ (L 1).val := by decide +kernel

/-- its chunk is empty, and every statement about the result on it holds. -/
theorem idle_val (h : ¬ k0_cond1 L = 1#1) : ∀ i ∈ cset (jL L), m (oLoc d) i = outFn d (m (pLoc d)) i := by
  intro i hi
  have h1 : (i 0).val / 16 = (L 1).val := mem_cset.mp hi
  have h2 : (i 0).val < 64 := (i 0).isLt
  have h3 := idle_ge L h
  omega

/-- The task on vector subcore `(L 0, L 1)` of device `d`. A working subcore: the copy in and its wait, two loads,
    the store of `sig1` of the loaded entries, the copy out and its wait. An idle one: nothing. -/
theorem tile_body (hF : (K (F := F)).Facts) (O : CellTallies nD τ sig (HIx 1)) (W : Waits sig (HIx 1)) (hO : ∀ g, O g none = 0) :
    iprop(levAts (K (F := F)).L (K (F := F)).lev ∗ emp
        ∗ (pChunk m d (jL L) ∗ oChunk d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sigmoid_sc L pW (Memref.isWhole_whole _) oW (Memref.isWhole_whole _) sW (Memref.isWhole_whole _) cc0_scoped0 cc0_scoped1)
          fun _ => iprop((pChunk m d (jL L) ∗ oChunk d (jL L) (outFn d (m (pLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · simp only [cc0__sigmoid_sc_eq_skeleton]; unfold cc0__sigmoid_sc_skel
    rw [(K (F := F)).scopedBufs_V hF d (cV L) (jV L), SparseCore.Cfg.scopedSems0_V (Val := Elt F) d (cV L) (jV L), ownSems0_V, ownBufs_V]
    iintro ⟨#Hlv, -, ⟨Hp, Ho⟩, ⟨⟨%fs, Hs⟩, Hbufs⟩, ⟨HsemA, HsemB, Hsems⟩, HO⟩
    ihave Hmw := ((K (F := F)).mayWaits_none (thr := V d (cV L) (jV L)) hO) $$ Hlv
    ihave Hp' := (Entails.of_eq (pts_pSl (F := F) d L k0_h1 _).symm) $$ Hp
    ihave Ho' := (Entails.of_eq (pts_oSl (F := F) d L k0_h1 _).symm) $$ Ho
    ihave Hs' := (Entails.of_eq (pts_sW (F := F) d L _).symm) $$ Hs
    sl_exec
    sl_step
    isplitl [Hp' Ho']
    · isplitl [Hp']
      · iapply (Entails.of_eq (pts_pSl (F := F) d L k0_h1 _)); iexact Hp'
      · iapply (Entails.of_eq ((pointsTo_congr (out_val m d L k0_h1 fs)).trans (pts_oSl (F := F) d L k0_h1 _))); iexact Ho'
    isplitl [Hs' Hbufs]
    · isplitl [Hs']
      · iexists _; iapply (Entails.of_eq (pts_sW (F := F) d L _)); iexact Hs'
      · iexact Hbufs
    isplitl [HsemA HsemB Hsems]
    · isplitl [HsemA]; · iexact HsemA
      isplitl [HsemB]; · iexact HsemB
      iexact Hsems
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  · simp only [cc0__sigmoid_sc_eq_skeleton]; unfold cc0__sigmoid_sc_skel
    iintro ⟨-, -, ⟨Hp, Ho⟩, Hsb, Hss, HO⟩
    sl_exec
    sl_step
    isplitl [Hp Ho]
    · isplitl [Hp]; · iexact Hp
      iapply (Entails.of_eq (pointsTo_congr (idle_val m d L k0_h1))); iexact Ho
    isplitl [Hsb]; · iexact Hsb
    isplitl [Hss]; · iexact Hss
    iexists W; isplitr
    · ipureintro; exact fun p hp => .inl hp
    · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sigmoid_sc (coordsV c s)
          pW (Memref.isWhole_whole _) oW (Memref.isWhole_whole _) sW (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the handshakes carry. The call takes `prob` and the result array whole and brings them back, the result
    at `outFn` of `prob`; task `i` takes chunk `i` of both and brings it back likewise. -/
def P : (K (F := F)).Pay (nD := nD) (Val := Elt F) (Name := ℕ) (U := UU) where
  st := fun q d _ => match q with | 0 => iprop((pLoc d ↦{fullShare} m (pLoc d)) ∗ oLoc d ↦{fullShare} m (oLoc d))
  dn := fun q d _ => match q with | 0 => iprop((pLoc d ↦{fullShare} m (pLoc d)) ∗ oLoc d ↦{fullShare} outFn d (m (pLoc d)))
  go := fun q d _ i => match q with
    | 0 => iprop(pChunk m d (Fin.cast nSub_zero i) ∗ oChunk d (Fin.cast nSub_zero i) (m (oLoc d)))
  td := fun q d _ i => match q with
    | 0 => iprop(pChunk m d (Fin.cast nSub_zero i) ∗ oChunk d (Fin.cast nSub_zero i) (outFn d (m (pLoc d))))
  x := fun _ _ => iprop(emp)

instance P_storable : (P (F := F) m).IsStorable where
  st q d _ := match q with
    | 0 => (inferInstance : BI.Storable (upEmb : UEmb _ 𝕄) iprop((pLoc d ↦{fullShare} m (pLoc d)) ∗ oLoc d ↦{fullShare} m (oLoc d)))
  dn q d _ := match q with
    | 0 => (inferInstance : BI.Storable (upEmb : UEmb _ 𝕄) iprop((pLoc d ↦{fullShare} m (pLoc d)) ∗ oLoc d ↦{fullShare} outFn d (m (pLoc d))))
  go q d _ i := match q with
    | 0 => (inferInstance : BI.Storable (upEmb : UEmb _ 𝕄)
        iprop(pChunk m d (Fin.cast nSub_zero i) ∗ oChunk d (Fin.cast nSub_zero i) (m (oLoc d))))
  td q d _ i := match q with
    | 0 => (inferInstance : BI.Storable (upEmb : UEmb _ 𝕄)
        iprop(pChunk m d (Fin.cast nSub_zero i) ∗ oChunk d (Fin.cast nSub_zero i) (outFn d (m (pLoc d)))))

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem pPts_chunks (d : Dev nD) (f : Buf (Elt F) (pLoc d)) :
    (pLoc d ↦{fullShare} f : sProp 𝕄) = bigSep Finset.univ fun i : Fin 16 => pLoc d ↦[cset i]{fullShare} f := by
  rw [← pointsTo_biUnion Finset.univ (ℓ := pLoc d) cset cset_disjoint, cset_cover]; try rfl
omit [FloatOps F] in
theorem oPts_chunks (d : Dev nD) (f : Buf (Elt F) (oLoc d)) :
    (oLoc d ↦{fullShare} f : sProp 𝕄) = bigSep Finset.univ fun i : Fin 16 => oLoc d ↦[cset i]{fullShare} f := by
  rw [← pointsTo_biUnion Finset.univ (ℓ := oLoc d) cset cset_disjoint, cset_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays split into the tasks' chunks, and the chunks the tasks bring back join to the arrays: the chunks
    are disjoint and cover the 64 indices. -/
theorem vecSplit : (K (F := F)).VecSplit' (P m) 0 := by
  intro d c
  show iprop((pLoc d ↦{fullShare} m (pLoc d)) ∗ oLoc d ↦{fullShare} m (oLoc d)) ⊢ |={Set.univ}=> iprop(
      (bigSep Finset.univ fun i : Fin ((K (F := F)).nSub 0) =>
        iprop(pChunk m d (Fin.cast nSub_zero i) ∗ oChunk d (Fin.cast nSub_zero i) (m (oLoc d))))
      ∗ ((bigSep Finset.univ fun i : Fin ((K (F := F)).nSub 0) =>
          iprop(pChunk m d (Fin.cast nSub_zero i) ∗ oChunk d (Fin.cast nSub_zero i) (outFn d (m (pLoc d)))))
          -∗ iprop((pLoc d ↦{fullShare} m (pLoc d)) ∗ oLoc d ↦{fullShare} outFn d (m (pLoc d)))))
  rw [bigSep_tasks (F := F) (fun i => iprop(pChunk m d i ∗ oChunk d i (m (oLoc d)))),
    bigSep_tasks (F := F) (fun i => iprop(pChunk m d i ∗ oChunk d i (outFn d (m (pLoc d))))), bigSep_sep', bigSep_sep']
  rw [pPts_chunks, oPts_chunks, oPts_chunks]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c)
    = iprop((pLoc d ↦{fullShare} m (pLoc d)) ∗ oLoc d ↦{fullShare} m (oLoc d)) :=
  bigSep_univ_of_subsingleton (0 : Fin 1)
theorem dn0_eq (d : Dev nD) : (bigSep Finset.univ fun c : Fin ((K (F := F)).nCore 0) => (P m).dn 0 d c)
    = iprop((pLoc d ↦{fullShare} m (pLoc d)) ∗ oLoc d ↦{fullShare} outFn d (m (pLoc d))) :=
  bigSep_univ_of_subsingleton (0 : Fin 1)

/-- What @main leaves the claim: `prob` at its launch contents, the result at `outFn` of them. -/
abbrev FIN (d : Dev nD) : sProp 𝕄 := iprop((pLoc d ↦{fullShare} m (pLoc d)) ∗ oLoc d ↦{fullShare} outFn d (m (pLoc d)))

/-- @main on device `d`'s TensorCore: the one call, from `prob` and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Ho⟩, -, -⟩, -⟩
  iapply ((K (F := F)).wp_run (D (F := F)) 𝒱 (EH := EH) (P := P m) κ d 0) $$ [Hst Hp Ho]
  isplitr; · iexact Hctx
  isplitl [Hst]; · iexact Hst
  isplitl [Hp Ho]
  · rw [st0_eq]
    isplitl [Hp]; · iexact Hp
    iexact Ho
  iintro ⟨Hst, Hdn⟩
  ihave Hdn' := (Entails.of_eq (dn0_eq m d)) $$ Hdn
  icases Hdn' with ⟨Hp, Ho⟩
  imodintro
  isplitl [Hst]; · iexact Hst
  isplitl [Hp]; · iexact Hp
  iexact Ho

def fq (d : Dev nD) (s' : Phys nD τ sig (Elt F)) : Prop := s'.mem.mem (oLoc d) = outFn d (m (pLoc d)) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hp, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (SI_pointsTo_agree (st := s') (ℓ := oLoc d) (I := Finset.univ) (q := fullShare) (f := outFn d (m (pLoc d)))) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop :=
  fun r => ∀ c : Dev nD, r.2.mem (oLoc c) = outFn c (m (pLoc c)) ∧ r.2.mem (pLoc c) = m (pLoc c)

/-- Every weakly fair execution of the device's threads terminates, nothing faulting, with the result array at
    `i ↦ sig1 (prob i)` and `prob` unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun

end
-- ==== Proof.KIRun.lean ====
/-
  The run of the sigmoid kernel on the device's thirty-five threads, for any float instance.

  The array `prob` of 64 entries is cut into four chunks of 16. Vector subcore `s` of SparseCore 0, for `s < 4`,
  copies chunk `s` into its own scratch, replaces every entry `x` of the scratch by `1 / (1 + exp (0 - x))`, and
  copies the scratch to chunk `s` of the result; the subcores `s ≥ 4` do nothing. The chunks are disjoint and cover
  the array, so the result array ends at `i ↦ 1 / (1 + exp (0 - prob i))` and `prob` is unchanged.
-/
import proofs.«215008_g71657234367105_cont_9to1_m_633_12_alg».proof.Defs
import Idealize.ShloMosaic.Lib.SparseCore.Launch
import Idealize.ShloMosaic.Lib.StableHlo.Run
import Idealize.ShloMosaic.Lib.Pipeline.Kit
import Idealize.ShloMosaic.Lib.Pipeline.Value
import Idealize.ShloMosaic.Lib.Tactic
import proofs.«215008_g71657234367105_cont_9to1_m_633_12_alg».proof.Proof.Gen.KernelIdeal
import proofs.«215008_g71657234367105_cont_9to1_m_633_12_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the chunks -/

variable (m : (ℓ : Loc nD τ sig) → Buf (Elt F) ℓ) (ρ : Dev nD → PrngReg)

local notation "pW" => (Memref.whole Cert.KernelIdeal.main_arg0_scv : Memref Cert.KernelIdeal.sig Kind.scVector Space.hbm Cert.KernelIdeal.S64 EltTy.f32)
local notation "oW" => (Memref.whole Cert.KernelIdeal.main_v0_scv : Memref Cert.KernelIdeal.sig Kind.scVector Space.hbm Cert.KernelIdeal.S64 EltTy.f32)
local notation "sW" => (Memref.whole Cert.KernelIdeal.cc0_scratch0 : Memref Cert.KernelIdeal.sig Kind.scVector Space.vmem Cert.KernelIdeal.S16 EltTy.f32)

/-- `prob` (the argument) and the result, as locations of device `d`. -/
abbrev pLoc (d : Dev nD) : Loc nD τ sig := (SparseCore.T d).loc main_arg0
abbrev oLoc (d : Dev nD) : Loc nD τ sig := (SparseCore.T d).loc main_v0

/-- Chunk `i`: the indices `16 i … 16 i + 15`. Nonempty only for `i < 4`. -/
def cset (i : Fin 16) : Finset S64.Idx := Finset.univ.filter fun x => (x 0).val / 16 = i.val

theorem mem_cset {i : Fin 16} {x : S64.Idx} : x ∈ cset i ↔ (x 0).val / 16 = i.val := by
  unfold cset; rw [Finset.mem_filter]; exact ⟨fun h => h.2, fun h => ⟨Finset.mem_univ _, h⟩⟩

theorem cset_disjoint : ∀ i ∈ (Finset.univ : Finset (Fin 16)), ∀ j ∈ (Finset.univ : Finset (Fin 16)), i ≠ j → Disjoint (cset i) (cset j) := by
  intro i _ j _ h
  refine Finset.disjoint_left.mpr fun x hi hj => h (Fin.ext ?_)
  rw [← mem_cset.mp hi, ← mem_cset.mp hj]

theorem cset_cover : (Finset.univ : Finset (Fin 16)).biUnion cset = Finset.univ := by
  ext x
  simp only [Finset.mem_biUnion, Finset.mem_univ, true_and, iff_true]
  have hx : (x 0).val < 64 := (x 0).isLt
  exact ⟨⟨(x 0).val / 16, by omega⟩, mem_cset.mpr rfl⟩

/-- Chunk `i` of `prob` at its launch contents, and of the result at `f`. -/
abbrev pChunk (d : Dev nD) (i : Fin 16) : sProp 𝕄 := pLoc d ↦[cset i]{fullShare} m (pLoc d)
abbrev oChunk (d : Dev nD) (i : Fin 16) (f : Buf (Elt F) (oLoc d)) : sProp 𝕄 := oLoc d ↦[cset i]{fullShare} f

variable [FloatOps F]

/-- One entry of the result from one entry of `prob`: `1 / (1 + exp (0 - x))`, in the instance's own operations. -/
def sig1 (x : F .f32) : F .f32 :=
  FloatOps.divf (Scalar.ofBits .f32 0x3F800000#32) (FloatOps.addf (Scalar.ofBits .f32 0x3F800000#32) (FloatOps.exp (FloatOps.subf (Scalar.ofBits .f32 0x00000000#32) x)))

/-- What the body stores is `sig1` of what it loaded, entry by entry. -/
theorem pay_apply (v : Vec F S16 .f32) (y : S16.Idx) : k0_pay1 v y = sig1 (v y) := by
  unfold k0_pay1 sig1
  simp only [shapeCast_self]
  rfl

/-- The result array as a function of `prob`. -/
def outFn (d : Dev nD) (f : Buf (Elt F) (pLoc d)) : Buf (Elt F) (oLoc d) := fun x => sig1 (f x)

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The chunk a working subcore slices out of `prob` and out of the result. -/
abbrev chunkR (L : grid0.Coords) (h : k0_cond1 L = 1#1) : Rect S64 := Rect.unit (s := S64) (k0_off1 L) S16.size (k0_off1_inb L h)
abbrev pSl (L : grid0.Coords) (h : k0_cond1 L = 1#1) : Memref sig .scVector .hbm S16 .f32 := (pW).slice (chunkR L h) (fun _ => rfl)
abbrev oSl (L : grid0.Coords) (h : k0_cond1 L = 1#1) : Memref sig .scVector .hbm S16 .f32 := (oW).slice (chunkR L h) (fun _ => rfl)

omit [FloatOps F] in
/-- The sliced rectangle is chunk `L 1`: the offset is `16 · L 1`. -/
theorem set_chunk (h : k0_cond1 L = 1#1) : (chunkR L h).set = cset (jL L) := by
  ext x
  rw [Rect.mem_set_unit, mem_cset, k0_off1_eq]
  show (∀ a, (![16 * (L 1).val] : Fin 1 → Nat) a ≤ x a ∧ (x a : Nat) < (![16 * (L 1).val] : Fin 1 → Nat) a + S16.size a) ↔ (x 0).val / 16 = (L 1).val
  constructor
  · intro hx
    have h0 := hx 0
    simp only [Matrix.cons_val_zero] at h0
    have : S16.size 0 = 16 := rfl
    omega
  · intro hx a
    obtain rfl : a = 0 := Subsingleton.elim _ _
    simp only [Matrix.cons_val_zero]
    have : S16.size 0 = 16 := rfl
    omega

omit [FloatOps F] in
theorem set_pSl (h : k0_cond1 L = 1#1) : (pSl L h).view.set = cset (jL L) := by
  show ((View.whole (main_arg0_scv : Ref sig .scVector)).slice (chunkR L h)).set = _
  rw [View.set_slice_whole]; exact set_chunk L h
omit [FloatOps F] in
theorem set_oSl (h : k0_cond1 L = 1#1) : (oSl L h).view.set = cset (jL L) := by
  show ((View.whole (main_v0_scv : Ref sig .scVector)).slice (chunkR L h)).set = _
  rw [View.set_slice_whole]; exact set_chunk L h

omit [FloatOps F] in
theorem pts_pSl (h : k0_cond1 L = 1#1) (f : Buf (Elt F) (pLoc d)) :
    ((pSl L h).view.loc (V d (cV L) (jV L)) ↦[(pSl L h).view.set]{fullShare} f : sProp 𝕄) = pLoc d ↦[cset (jL L)]{fullShare} f := by
  rw [set_pSl]
omit [FloatOps F] in
theorem pts_oSl (h : k0_cond1 L = 1#1) (f : Buf (Elt F) (oLoc d)) :
    ((oSl L h).view.loc (V d (cV L) (jV L)) ↦[(oSl L h).view.set]{fullShare} f : sProp 𝕄) = oLoc d ↦[cset (jL L)]{fullShare} f := by
  rw [set_oSl]
omit [FloatOps F] in
theorem pts_sW (f : Buf (Elt F) ((V d (cV L) (jV L)).loc cc0_scratch0)) :
    ((sW).view.loc (V d (cV L) (jV L)) ↦{fullShare} f : sProp 𝕄) = (V d (cV L) (jV L)).loc cc0_scratch0 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The scratch is among the subcore's own buffers: it, at some contents, and the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- The whole-scratch rectangle sits at offset 0: an index in it is the scratch's own index. -/
theorem rS_emb (x : (Rect.unit (s := S16) ![0] S16.size inb_S16_S16_0).shape.Idx) :
    (Rect.unit (s := S16) ![0] S16.size inb_S16_S16_0).emb x = x := by
  funext a; apply Fin.ext
  obtain rfl : a = 0 := Subsingleton.elim _ _
  show 0 + 1 * (x 0).val = (x 0).val
  omega
omit [FloatOps F] in
theorem rS_idx (x : (Rect.unit (s := S16) ![0] S16.size inb_S16_S16_0).toLoadRect.shape.Idx) :
    (Rect.unit (s := S16) ![0] S16.size inb_S16_S16_0).toLoadRect.idx x = x := by
  funext a; apply Fin.ext
  rw [LoadRect.idx_apply, Subsingleton.elim a 0]
  show 0 + 1 * (x 0).val = (x 0).val
  omega

omit [FloatOps F] in
/-- A store over the whole scratch leaves the stored vector, whatever the scratch held. -/
theorem scratch_store (X : (View.whole (cc0_scratch0 : Ref sig .scVector)).ty.Contents (Elt F))
    (w : (Rect.unit (s := S16) ![0] S16.size inb_S16_S16_0).shape.Idx → Elt F .f32) :
    (View.whole (cc0_scratch0 : Ref sig .scVector)).writes (Elt F) X [⟨Rect.unit (s := S16) ![0] S16.size inb_S16_S16_0, w⟩] = w := by
  funext y
  have e := View.read_writes_cons_emb (View.whole (cc0_scratch0 : Ref sig .scVector)) X (Rect.unit (s := S16) ![0] S16.size inb_S16_S16_0) w [] y
  rw [rS_emb, View.read_whole] at e
  exact e
omit [FloatOps F] in
/-- A load of the whole scratch reads what it holds. -/
theorem scratch_load (X : (View.whole (cc0_scratch0 : Ref sig .scVector)).ty.Contents (Elt F)) :
    View.readAt (Elt F) (View.whole (cc0_scratch0 : Ref sig .scVector)) (Rect.unit (s := S16) ![0] S16.size inb_S16_S16_0).toLoadRect X = X := by
  funext x
  rw [View.readAt_apply, View.read_whole, rS_idx]

/-- What a working subcore leaves in its chunk of the result: at every index of the chunk, `sig1` of `prob` there.
    The copy in fills the scratch with the chunk of `prob`; the store overwrites all of it with `sig1` of it, entry
    by entry; the copy out writes the scratch over the chunk of the result. -/
theorem out_val (h : k0_cond1 L = 1#1) (fs : Buf (Elt F) ((V d (cV L) (jV L)).loc cc0_scratch0)) :
    ∀ i ∈ (oSl L h).view.set,
      (oSl L h).view.writes (Elt F) (m (oLoc d))
        [⟨Rect.whole S16, ReadAs.same.apply ((sW).view.read (Elt F)
          ((sW).view.writes (Elt F) ((sW).view.write (Elt F) fs (ReadAs.same.apply ((pSl L h).view.read (Elt F) (m (pLoc d)))) Finset.univ)
            [⟨Rect.unit (s := S16) ![0] S16.size inb_S16_S16_0,
              k0_pay1 ((sW).view.readAt (Elt F) (Rect.unit (s := S16) ![0] S16.size inb_S16_S16_0).toLoadRect
                ((sW).view.write (Elt F) fs (ReadAs.same.apply ((pSl L h).view.read (Elt F) (m (pLoc d)))) Finset.univ))⟩]))⟩] i
      = outFn d (m (pLoc d)) i := by
  intro i hi
  obtain ⟨y, -, rfl⟩ := Finset.mem_map.mp hi
  refine ((View.read_apply (v := (oSl L h).view) _ y).trans (cast_eq _ _)).symm.trans ?_
  refine (Eq.trans (congrArg _ (Rect.emb_whole_apply S16 y).symm) (View.read_writes_cons_emb _ _ _ _ _ _)).trans ?_
  simp only [ReadAs.apply_same, Memref.view_whole, View.read_whole, View.write_whole_univ]
  show ((View.whole (cc0_scratch0 : Ref sig .scVector)).writes (Elt F) _ [⟨_, _⟩]) y = _
  rw [scratch_store, pay_apply, scratch_load]
  exact congrArg sig1 ((View.read_apply _ _).trans (cast_eq _ _))

omit [FloatOps F] in
/-- A subcore that does not work has coordinate 4 or more: -/
theorem idle_ge : ∀ L : grid0.Coords, ¬ k0_cond1 L = 1#1 → 4 ≤ (L 1).val := by decide +kernel

/-- its chunk is empty, and every statement about the result on it holds. -/
theorem idle_val (h : ¬ k0_cond1 L = 1#1) : ∀ i ∈ cset (jL L), m (oLoc d) i = outFn d (m (pLoc d)) i := by
  intro i hi
  have h1 : (i 0).val / 16 = (L 1).val := mem_cset.mp hi
  have h2 : (i 0).val < 64 := (i 0).isLt
  have h3 := idle_ge L h
  omega

/-- The task on vector subcore `(L 0, L 1)` of device `d`. A working subcore: the copy in and its wait, two loads,
    the store of `sig1` of the loaded entries, the copy out and its wait. An idle one: nothing. -/
theorem tile_body (hF : (K (F := F)).Facts) (O : CellTallies nD τ sig (HIx 1)) (W : Waits sig (HIx 1)) (hO : ∀ g, O g none = 0) :
    iprop(levAts (K (F := F)).L (K (F := F)).lev ∗ emp
        ∗ (pChunk m d (jL L) ∗ oChunk d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sigmoid_sc L pW (Memref.isWhole_whole _) oW (Memref.isWhole_whole _) sW (Memref.isWhole_whole _) cc0_scoped0 cc0_scoped1)
          fun _ => iprop((pChunk m d (jL L) ∗ oChunk d (jL L) (outFn d (m (pLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases k0_h1 : k0_cond1 L = 1#1
  · simp only [cc0__sigmoid_sc_eq_skeleton]; unfold cc0__sigmoid_sc_skel
    rw [(K (F := F)).scopedBufs_V hF d (cV L) (jV L), SparseCore.Cfg.scopedSems0_V (Val := Elt F) d (cV L) (jV L), ownSems0_V, ownBufs_V]
    iintro ⟨#Hlv, -, ⟨Hp, Ho⟩, ⟨⟨%fs, Hs⟩, Hbufs⟩, ⟨HsemA, HsemB, Hsems⟩, HO⟩
    ihave Hmw := ((K (F := F)).mayWaits_none (thr := V d (cV L) (jV L)) hO) $$ Hlv
    ihave Hp' := (Entails.of_eq (pts_pSl (F := F) d L k0_h1 _).symm) $$ Hp
    ihave Ho' := (Entails.of_eq (pts_oSl (F := F) d L k0_h1 _).symm) $$ Ho
    ihave Hs' := (Entails.of_eq (pts_sW (F := F) d L _).symm) $$ Hs
    sl_exec
    sl_step
    isplitl [Hp' Ho']
    · isplitl [Hp']
      · iapply (Entails.of_eq (pts_pSl (F := F) d L k0_h1 _)); iexact Hp'
      · iapply (Entails.of_eq ((pointsTo_congr (out_val m d L k0_h1 fs)).trans (pts_oSl (F := F) d L k0_h1 _))); iexact Ho'
    isplitl [Hs' Hbufs]
    · isplitl [Hs']
      · iexists _; iapply (Entails.of_eq (pts_sW (F := F) d L _)); iexact Hs'
      · iexact Hbufs
    isplitl [HsemA HsemB Hsems]
    · isplitl [HsemA]; · iexact HsemA
      isplitl [HsemB]; · iexact HsemB
      iexact Hsems
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  · simp only [cc0__sigmoid_sc_eq_skeleton]; unfold cc0__sigmoid_sc_skel
    iintro ⟨-, -, ⟨Hp, Ho⟩, Hsb, Hss, HO⟩
    sl_exec
    sl_step
    isplitl [Hp Ho]
    · isplitl [Hp]; · iexact Hp
      iapply (Entails.of_eq (pointsTo_congr (idle_val m d L k0_h1))); iexact Ho
    isplitl [Hsb]; · iexact Hsb
    isplitl [Hss]; · iexact Hss
    iexists W; isplitr
    · ipureintro; exact fun p hp => .inl hp
    · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sigmoid_sc (coordsV c s)
          pW (Memref.isWhole_whole _) oW (Memref.isWhole_whole _) sW (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the handshakes carry. The call takes `prob` and the result array whole and brings them back, the result
    at `outFn` of `prob`; task `i` takes chunk `i` of both and brings it back likewise. -/
def P : (K (F := F)).Pay (nD := nD) (Val := Elt F) (Name := ℕ) (U := UU) where
  st := fun q d _ => match q with | 0 => iprop((pLoc d ↦{fullShare} m (pLoc d)) ∗ oLoc d ↦{fullShare} m (oLoc d))
  dn := fun q d _ => match q with | 0 => iprop((pLoc d ↦{fullShare} m (pLoc d)) ∗ oLoc d ↦{fullShare} outFn d (m (pLoc d)))
  go := fun q d _ i => match q with
    | 0 => iprop(pChunk m d (Fin.cast nSub_zero i) ∗ oChunk d (Fin.cast nSub_zero i) (m (oLoc d)))
  td := fun q d _ i => match q with
    | 0 => iprop(pChunk m d (Fin.cast nSub_zero i) ∗ oChunk d (Fin.cast nSub_zero i) (outFn d (m (pLoc d))))
  x := fun _ _ => iprop(emp)

instance P_storable : (P (F := F) m).IsStorable where
  st q d _ := match q with
    | 0 => (inferInstance : BI.Storable (upEmb : UEmb _ 𝕄) iprop((pLoc d ↦{fullShare} m (pLoc d)) ∗ oLoc d ↦{fullShare} m (oLoc d)))
  dn q d _ := match q with
    | 0 => (inferInstance : BI.Storable (upEmb : UEmb _ 𝕄) iprop((pLoc d ↦{fullShare} m (pLoc d)) ∗ oLoc d ↦{fullShare} outFn d (m (pLoc d))))
  go q d _ i := match q with
    | 0 => (inferInstance : BI.Storable (upEmb : UEmb _ 𝕄)
        iprop(pChunk m d (Fin.cast nSub_zero i) ∗ oChunk d (Fin.cast nSub_zero i) (m (oLoc d))))
  td q d _ i := match q with
    | 0 => (inferInstance : BI.Storable (upEmb : UEmb _ 𝕄)
        iprop(pChunk m d (Fin.cast nSub_zero i) ∗ oChunk d (Fin.cast nSub_zero i) (outFn d (m (pLoc d)))))

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem pPts_chunks (d : Dev nD) (f : Buf (Elt F) (pLoc d)) :
    (pLoc d ↦{fullShare} f : sProp 𝕄) = bigSep Finset.univ fun i : Fin 16 => pLoc d ↦[cset i]{fullShare} f := by
  rw [← pointsTo_biUnion Finset.univ (ℓ := pLoc d) cset cset_disjoint, cset_cover]; try rfl
omit [FloatOps F] in
theorem oPts_chunks (d : Dev nD) (f : Buf (Elt F) (oLoc d)) :
    (oLoc d ↦{fullShare} f : sProp 𝕄) = bigSep Finset.univ fun i : Fin 16 => oLoc d ↦[cset i]{fullShare} f := by
  rw [← pointsTo_biUnion Finset.univ (ℓ := oLoc d) cset cset_disjoint, cset_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays split into the tasks' chunks, and the chunks the tasks bring back join to the arrays: the chunks
    are disjoint and cover the 64 indices. -/
theorem vecSplit : (K (F := F)).VecSplit' (P m) 0 := by
  intro d c
  show iprop((pLoc d ↦{fullShare} m (pLoc d)) ∗ oLoc d ↦{fullShare} m (oLoc d)) ⊢ |={Set.univ}=> iprop(
      (bigSep Finset.univ fun i : Fin ((K (F := F)).nSub 0) =>
        iprop(pChunk m d (Fin.cast nSub_zero i) ∗ oChunk d (Fin.cast nSub_zero i) (m (oLoc d))))
      ∗ ((bigSep Finset.univ fun i : Fin ((K (F := F)).nSub 0) =>
          iprop(pChunk m d (Fin.cast nSub_zero i) ∗ oChunk d (Fin.cast nSub_zero i) (outFn d (m (pLoc d)))))
          -∗ iprop((pLoc d ↦{fullShare} m (pLoc d)) ∗ oLoc d ↦{fullShare} outFn d (m (pLoc d)))))
  rw [bigSep_tasks (F := F) (fun i => iprop(pChunk m d i ∗ oChunk d i (m (oLoc d)))),
    bigSep_tasks (F := F) (fun i => iprop(pChunk m d i ∗ oChunk d i (outFn d (m (pLoc d))))), bigSep_sep', bigSep_sep']
  rw [pPts_chunks, oPts_chunks, oPts_chunks]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((pLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c)
    = iprop((pLoc d ↦{fullShare} m (pLoc d)) ∗ oLoc d ↦{fullShare} m (oLoc d)) :=
  bigSep_univ_of_subsingleton (0 : Fin 1)
theorem dn0_eq (d : Dev nD) : (bigSep Finset.univ fun c : Fin ((K (F := F)).nCore 0) => (P m).dn 0 d c)
    = iprop((pLoc d ↦{fullShare} m (pLoc d)) ∗ oLoc d ↦{fullShare} outFn d (m (pLoc d))) :=
  bigSep_univ_of_subsingleton (0 : Fin 1)

/-- What @main leaves the claim: `prob` at its launch contents, the result at `outFn` of them. -/
abbrev FIN (d : Dev nD) : sProp 𝕄 := iprop((pLoc d ↦{fullShare} m (pLoc d)) ∗ oLoc d ↦{fullShare} outFn d (m (pLoc d)))

/-- @main on device `d`'s TensorCore: the one call, from `prob` and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Ho⟩, -, -⟩, -⟩
  iapply ((K (F := F)).wp_run (D (F := F)) 𝒱 (EH := EH) (P := P m) κ d 0) $$ [Hst Hp Ho]
  isplitr; · iexact Hctx
  isplitl [Hst]; · iexact Hst
  isplitl [Hp Ho]
  · rw [st0_eq]
    isplitl [Hp]; · iexact Hp
    iexact Ho
  iintro ⟨Hst, Hdn⟩
  ihave Hdn' := (Entails.of_eq (dn0_eq m d)) $$ Hdn
  icases Hdn' with ⟨Hp, Ho⟩
  imodintro
  isplitl [Hst]; · iexact Hst
  isplitl [Hp]; · iexact Hp
  iexact Ho

def fq (d : Dev nD) (s' : Phys nD τ sig (Elt F)) : Prop := s'.mem.mem (oLoc d) = outFn d (m (pLoc d)) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hp, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (SI_pointsTo_agree (st := s') (ℓ := oLoc d) (I := Finset.univ) (q := fullShare) (f := outFn d (m (pLoc d)))) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop :=
  fun r => ∀ c : Dev nD, r.2.mem (oLoc c) = outFn c (m (pLoc c)) ∧ r.2.mem (pLoc c) = m (pLoc c)

/-- Every weakly fair execution of the device's threads terminates, nothing faulting, with the result array at
    `i ↦ sig1 (prob i)` and `prob` unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun

end
-- ==== Proof.Bridge.lean ====
/-
  The reference's value, at the ideal instance, is the kernel's.

  The reference computes `1 / (1 + exp (-x))` entry by entry, the kernel `1 / (1 + exp (0 - x))`, with the same
  constants, the same exponential and the same quotient on the extended reals. The two differ only in how they
  negate, and `0 - x = -x` holds for every extended real, the infinities included: nothing here needs the entries
  finite.
-/
import proofs.«215008_g71657234367105_cont_9to1_m_633_12_alg».proof.Proof.KIRun
import proofs.«215008_g71657234367105_cont_9to1_m_633_12_alg».proof.Proof.Gen.ReferenceIdeal.Read
import Idealize.ShloMosaic.PureOps.Ideal
import Idealize.ShloMosaic.PureOps.Ideal.Laws

noncomputable section

namespace Cert.Proof.Bridge

open Idealize.ShloMosaic Cert.ReferenceIdeal Cert.ReferenceIdeal.Gen

/-- The reference's result, read at an index, is `sig1` of the argument there. -/
theorem ref_eq (x : (⟨S64, .f32⟩ : BufTy).Contents (Elt Ideal)) :
    Cert.ReferenceIdeal.Read.val_main_v5 (F := Ideal) x = fun i => Cert.Proof.KernelIdealRun.sig1 (F := Ideal) (x i) := by
  funext i
  rw [Read.val_main_v5_apply, Read.val_main_v4_apply, Read.val_main_cst_0_apply, Read.val_main_v3_apply, Read.val_main_v2_apply,
    Read.val_main_cst_apply, Read.val_main_v1_apply, Read.val_main_v0_apply]
  show Ideal.div (Ideal.ofBits .f32 0x3F800000#32) (Ideal.ofBits .f32 0x3F800000#32 + Ideal.exp (-(x i)))
    = Ideal.div (Ideal.ofBits .f32 0x3F800000#32) (Ideal.ofBits .f32 0x3F800000#32 + Ideal.exp (Ideal.ofBits .f32 0x00000000#32 - x i))
  rw [Ideal.ofBits_zero_f32, zero_sub]

end Cert.Proof.Bridge

end
-- ==== Proof.lean ====
/-
  The kernel splits `prob`, 64 entries, into four chunks of 16; vector subcore `s < 4` of SparseCore 0 computes
  `1 / (1 + exp (0 - x))` on chunk `s` and writes it to chunk `s` of the result, the other subcores do nothing.
  The reference computes `1 / (1 + exp (-x))` on the whole array.

  * The three frames: the kernel's two programs are one text, read at the word-level floats and at the extended reals,
    and its run (modules KRun, KIRun) ends with `prob` unchanged and the result at `i ↦ sig1 (prob i)`; the
    reference's run is a straight line of host operations.
  * The idealization rewrote nothing, so there is nothing to preserve.
  * On the extended reals the two results are equal entry by entry, because `0 - x = -x` there (module Bridge);
    the entries need not be finite for that.
-/
import proofs.«215008_g71657234367105_cont_9to1_m_633_12_alg».proof.Defs
import proofs.«215008_g71657234367105_cont_9to1_m_633_12_alg».proof.Proof.Gen.Kernel
import proofs.«215008_g71657234367105_cont_9to1_m_633_12_alg».proof.Proof.Gen.Kernel.Skeleton
import proofs.«215008_g71657234367105_cont_9to1_m_633_12_alg».proof.Proof.Gen.KernelIdeal
import proofs.«215008_g71657234367105_cont_9to1_m_633_12_alg».proof.Proof.Gen.KernelIdeal.Skeleton
import proofs.«215008_g71657234367105_cont_9to1_m_633_12_alg».proof.Proof.Gen.ReferenceIdeal
import proofs.«215008_g71657234367105_cont_9to1_m_633_12_alg».proof.Proof.Gen.Pre_finite_inputs
import proofs.«215008_g71657234367105_cont_9to1_m_633_12_alg».proof.Proof.Gen.ReferenceIdeal.Run
import proofs.«215008_g71657234367105_cont_9to1_m_633_12_alg».proof.Proof.Gen.ReferenceIdeal.Read
import proofs.«215008_g71657234367105_cont_9to1_m_633_12_alg».proof.Proof.KRun
import proofs.«215008_g71657234367105_cont_9to1_m_633_12_alg».proof.Proof.KIRun
import proofs.«215008_g71657234367105_cont_9to1_m_633_12_alg».proof.Proof.Bridge
import Idealize.ShloMosaic.Adequacy
import Idealize.ShloMosaic.Init

noncomputable section

namespace Cert.Proof

open Idealize.ShloMosaic Idealize.SL.Sem

/-- The word-level kernel runs and leaves `prob` unchanged: its run, the result's value dropped. -/
theorem frame_k : Cert.frame_Kernel := fun m ρ _ =>
  (θ_run Cert.Kernel.defs _ _).mono (fun _ h c => (h c).2) (KernelRun.run_main (F := Bits) m ρ)

/-- The same for the kernel read on the extended reals. -/
theorem frame_ki : Cert.frame_KernelIdeal := fun m ρ _ =>
  (θ_run Cert.KernelIdeal.defs _ _).mono (fun _ h c => (h c).2) (KernelIdealRun.run_main (F := Ideal) m ρ)

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on `prob`, both programs end with the result at `i ↦ 1 / (1 + exp (0 - prob i))`: the
    kernel by its run, the reference by its run and `0 - x = -x`. -/
theorem algebraic : Cert.algebraic_KernelIdeal_ReferenceIdeal := by
  intro m ρ m' ρ' _ hagree
  refine ⟨fun c => KernelIdealRun.outFn c (m (KernelIdealRun.pLoc c)), KernelIdealRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v5_eq]
  exact Bridge.ref_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
